-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1250000 : Shape := ⟨2, ![2, 1250000]⟩
abbrev S1250000 : Shape := ⟨1, ![1250000]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1250000 : S_.BroadcastsInDim S1250000 (![] : Fin 0 → Fin S1250000.rank)
  reducesTo_S1250000_S_d0 : S1250000.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S100000x128 .f32) (main_arg1 : IVec S2x1250000 32) (main_arg2 : FVec F S1250000 .f32) (main_arg3 : FVec F S128x64 .f32) (main_arg4 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1250000 .f32 := Host.absf main_arg2
  let main_cst_0 : FVec F S_ .f32 := constant S_ .f32 0x7F800000#32
  let main_v5 : FVec F S1250000 .f32 := broadcastInDim S1250000 ![] bcast_S_S1250000 main_cst_0
  let main_v6 : IVec S1250000 1 := cmpf .olt main_v4 main_v5
  let main_c_1 : IVec S_ 1 := constantI S_ 1 1#1
  let main_v7 : IVec S_ 1 := (fun x v => Host.reduce IntOp.andi x v reducesTo_S1250000_S_d0 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S100000x128 : Shape := ⟨2, ![100000, 128]⟩
abbrev S2x1250000 : Shape := ⟨2, ![2, 1250000]⟩
abbrev S1250000 : Shape := ⟨1, ![1250000]⟩
abbrev S128x64 : Shape := ⟨2, ![128, 64]⟩
abbrev S64 : Shape := ⟨1, ![64]⟩
abbrev S1x1250000 : Shape := ⟨2, ![1, 1250000]⟩
abbrev S100000x64 : Shape := ⟨2, ![100000, 64]⟩
abbrev S10000x128 : Shape := ⟨2, ![10000, 128]⟩
abbrev S10000x64 : Shape := ⟨2, ![10000, 64]⟩
abbrev S_ : Shape := ⟨0, ![]⟩
abbrev S100000 : Shape := ⟨1, ![100000]⟩
abbrev S1250000x1 : Shape := ⟨2, ![1250000, 1]⟩
abbrev S1250000x64 : Shape := ⟨2, ![1250000, 64]⟩
abbrev S10000x1 : Shape := ⟨2, ![10000, 1]⟩
abbrev S1x64 : Shape := ⟨2, ![1, 64]⟩

abbrev nBuf : Space → Nat
  | .hbm => 74
  | .vmem => 11
  | .smem => 0
  | _ => 0

abbrev bufTy : (tb : Table) → Fin (tcTables nBuf tb) → BufTy
  | .hbm, ⟨0, _⟩ => ⟨S100000x128, .f32⟩
  | .hbm, ⟨1, _⟩ => ⟨S2x1250000, .i32⟩
  | .hbm, ⟨2, _⟩ => ⟨S1250000, .f32⟩
  | .hbm, ⟨3, _⟩ => ⟨S128x64, .f32⟩
  | .hbm, ⟨4, _⟩ => ⟨S64, .f32⟩
  | .hbm, ⟨5, _⟩ => ⟨S1x1250000, .i32⟩
  | .hbm, ⟨6, _⟩ => ⟨S1250000, .i32⟩
  | .hbm, ⟨7, _⟩ => ⟨S1x1250000, .i32⟩
  | .hbm, ⟨8, _⟩ => ⟨S1250000, .i32⟩
  | .hbm, ⟨9, _⟩ => ⟨S100000x64, .f32⟩
  | .hbm, ⟨10, _⟩ => ⟨S_, .f32⟩
  | .hbm, ⟨11, _⟩ => ⟨S100000, .f32⟩
  | .hbm, ⟨12, _⟩ => ⟨S_, .i32⟩
  | .hbm, ⟨13, _⟩ => ⟨S1250000, .i32⟩
  | .hbm, ⟨14, _⟩ => ⟨S1250000, .i1⟩
  | .hbm, ⟨15, _⟩ => ⟨S_, .i32⟩
  | .hbm, ⟨16, _⟩ => ⟨S1250000, .i32⟩
  | .hbm, ⟨17, _⟩ => ⟨S1250000, .i32⟩
  | .hbm, ⟨18, _⟩ => ⟨S1250000, .i32⟩
  | .hbm, ⟨19, _⟩ => ⟨S1250000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1250000, .i32⟩
  | .hbm, ⟨32, _⟩ => ⟨S1250000, .i1⟩
  | .hbm, ⟨33, _⟩ => ⟨S_, .i32⟩
  | .hbm, ⟨34, _⟩ => ⟨S1250000, .i32⟩
  | .hbm, ⟨35, _⟩ => ⟨S1250000, .i32⟩
  | .hbm, ⟨36, _⟩ => ⟨S1250000, .i32⟩
  | .hbm, ⟨37, _⟩ => ⟨S1250000x1, .i32⟩
  | .hbm, ⟨38, _⟩ => ⟨S1250000, .f32⟩
  | .hbm, ⟨39, _⟩ => ⟨S_, .i32⟩
  | .hbm, ⟨40, _⟩ => ⟨S1250000, .i32⟩
  | .hbm, ⟨41, _⟩ => ⟨S1250000, .i1⟩
  | .hbm, ⟨42, _⟩ => ⟨S_, .i32⟩
  | .hbm, ⟨43, _⟩ => ⟨S1250000, .i32⟩
  | .hbm, ⟨44, _⟩ => ⟨S1250000, .i32⟩
  | .hbm, ⟨45, _⟩ => ⟨S1250000, .i32⟩
  | .hbm, ⟨46, _⟩ => ⟨S1250000x1, .i32⟩
  | .hbm, ⟨47, _⟩ => ⟨S1250000, .f32⟩
  | .hbm, ⟨48, _⟩ => ⟨S1250000, .f32⟩
  | .hbm, ⟨49, _⟩ => ⟨S_, .i32⟩
  | .hbm, ⟨50, _⟩ => ⟨S1250000, .i32⟩
  | .hbm, ⟨51, _⟩ => ⟨S1250000, .i1⟩
  | .hbm, ⟨52, _⟩ => ⟨S_, .i32⟩
  | .hbm, ⟨53, _⟩ => ⟨S1250000, .i32⟩
  | .hbm, ⟨54, _⟩ => ⟨S1250000, .i32⟩
  | .hbm, ⟨55, _⟩ => ⟨S1250000, .i32⟩
  | .hbm, ⟨56, _⟩ => ⟨S1250000x1, .i32⟩
  | .hbm, ⟨57, _⟩ => ⟨S1250000x64, .f32⟩
  | .hbm, ⟨58, _⟩ => ⟨S1250000x1, .f32⟩
  | .hbm, ⟨59, _⟩ => ⟨S1250000x64, .f32⟩
  | .hbm, ⟨60, _⟩ => ⟨S_, .f32⟩
  | .hbm, ⟨61, _⟩ => ⟨S100000x64, .f32⟩
  | .hbm, ⟨62, _⟩ => ⟨S_, .i32⟩
  | .hbm, ⟨63, _⟩ => ⟨S1250000, .i32⟩
  | .hbm, ⟨64, _⟩ => ⟨S1250000, .i1⟩
  | .hbm, ⟨65, _⟩ => ⟨S_, .i32⟩
  | .hbm, ⟨66, _⟩ => ⟨S1250000, .i32⟩
  | .hbm, ⟨67, _⟩ => ⟨S1250000, .i32⟩
  | .hbm, ⟨68, _⟩ => ⟨S1250000, .i32⟩
  | .hbm, ⟨69, _⟩ => ⟨S1250000x1, .i32⟩
  | .hbm, ⟨70, _⟩ => ⟨S100000x64, .f32⟩
  | .hbm, ⟨71, _⟩ => ⟨S1x64, .f32⟩
  | .hbm, ⟨72, _⟩ => ⟨S100000x64, .f32⟩
  | .hbm, ⟨73, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x1, .f32⟩
  | .local _ .vmem, ⟨8, _⟩ => ⟨S10000x1, .f32⟩
  | .local _ .vmem, ⟨9, _⟩ => ⟨S10000x64, .f32⟩
  | .local _ .vmem, ⟨10, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_4 : Ref sig .tc := ⟨.hbm, 30, rfl⟩
abbrev main_v19 : Ref sig .tc := ⟨.hbm, 31, rfl⟩
abbrev main_v20 : Ref sig .tc := ⟨.hbm, 32, rfl⟩
abbrev main_c_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_6 : Ref sig .tc := ⟨.hbm, 39, rfl⟩
abbrev main_v26 : Ref sig .tc := ⟨.hbm, 40, rfl⟩
abbrev main_v27 : Ref sig .tc := ⟨.hbm, 41, rfl⟩
abbrev main_c_7 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_8 : Ref sig .tc := ⟨.hbm, 49, rfl⟩
abbrev main_v34 : Ref sig .tc := ⟨.hbm, 50, rfl⟩
abbrev main_v35 : Ref sig .tc := ⟨.hbm, 51, rfl⟩
abbrev main_c_9 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_10 : Ref sig .tc := ⟨.hbm, 60, rfl⟩
abbrev main_v43 : Ref sig .tc := ⟨.hbm, 61, rfl⟩
abbrev main_c_11 : Ref sig .tc := ⟨.hbm, 62, rfl⟩
abbrev main_v44 : Ref sig .tc := ⟨.hbm, 63, rfl⟩
abbrev main_v45 : Ref sig .tc := ⟨.hbm, 64, rfl⟩
abbrev main_c_12 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S_S100000 : S_.BroadcastsInDim S100000 (![] : Fin 0 → Fin S100000.rank)
  bcast_S_S1250000 : S_.BroadcastsInDim S1250000 (![] : Fin 0 → Fin S1250000.rank)
  bcast_S1250000_S1250000x1_0 : S1250000.BroadcastsInDim S1250000x1 (![0] : Fin 1 → Fin S1250000x1.rank)
  shapeCasts_S1250000_S1250000x1 : S1250000.ShapeCasts S1250000x1
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S10000x128_S128x64_S10000x64_1_0_0_1_n_n_wf : DotDims.WF S10000x128 S128x64 S10000x64 [1] [0] [0] [1] [] []
  scatter_S100000_S1250000x1_S1250000_n_0_0_1_wf : ScatterDims.WF S100000 S1250000x1 S1250000 [] [0] [0] 1
  gather_S100000_S1250000x1_S1250000_n_0_n_n_0_1_1_wf : GatherDims.WF S100000 S1250000x1 S1250000 [] [0] [] [0] [] 1 ![1]
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S1250000x64.size a
  hwx1_0 : ∀ i : grid1.Coords, EltTy.bits .f32 = 32 ∨ (Rect.block (s := S1250000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S1250000x1.size a
  hwx1_1 : ∀ i : grid1.Coords, EltTy.bits .f32 = 32 ∨ (Rect.block (s := S1250000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S1250000x64.size a
  hwx1_2 : ∀ i : grid1.Coords, EltTy.bits .f32 = 32 ∨ (Rect.block (s := S1250000x64) S10000x64.size (cc1_transform_2 i) (hinb1_2 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def gather_S100000_S1250000x1_S1250000_n_0_n_n_0_1_1 : GatherDims S100000 S1250000x1 S1250000 where
  offsetDims := []
  collapsedSliceDims := [0]
  operandBatchingDims := []
  startIndicesBatchingDims := []
  startIndexMap := [0]
  indexVectorDim := 1
  sliceSizes := ![1]
  wf := gather_S100000_S1250000x1_S1250000_n_0_n_n_0_1_1_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1250000 : Shape := ⟨2, ![2, 1250000]⟩
abbrev S1250000 : Shape := ⟨1, ![1250000]⟩
abbrev S128x64 : Shape := ⟨2, ![128, 64]⟩
abbrev S64 : Shape := ⟨1, ![64]⟩
abbrev S100000x64 : Shape := ⟨2, ![100000, 64]⟩
abbrev S1x1250000 : Shape := ⟨2, ![1, 1250000]⟩
abbrev S_ : Shape := ⟨0, ![]⟩
abbrev S100000 : Shape := ⟨1, ![100000]⟩
abbrev S1250000x1 : Shape := ⟨2, ![1250000, 1]⟩
abbrev S1250000x64 : Shape := ⟨2, ![1250000, 64]⟩
abbrev S1x64 : Shape := ⟨2, ![1, 64]⟩

abbrev nBuf : Space → Nat
  | .hbm => 75
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1250000, .i32⟩
  | .hbm, ⟨2, _⟩ => ⟨S1250000, .f32⟩
  | .hbm, ⟨3, _⟩ => ⟨S128x64, .f32⟩
  | .hbm, ⟨4, _⟩ => ⟨S64, .f32⟩
  | .hbm, ⟨5, _⟩ => ⟨S100000x64, .f32⟩
  | .hbm, ⟨6, _⟩ => ⟨S1x1250000, .i32⟩
  | .hbm, ⟨7, _⟩ => ⟨S1250000, .i32⟩
  | .hbm, ⟨8, _⟩ => ⟨S1x1250000, .i32⟩
  | .hbm, ⟨9, _⟩ => ⟨S1250000, .i32⟩
  | .hbm, ⟨10, _⟩ => ⟨S_, .f32⟩
  | .hbm, ⟨11, _⟩ => ⟨S100000, .f32⟩
  | .hbm, ⟨12, _⟩ => ⟨S_, .i32⟩
  | .hbm, ⟨13, _⟩ => ⟨S1250000, .i32⟩
  | .hbm, ⟨14, _⟩ => ⟨S1250000, .i1⟩
  | .hbm, ⟨15, _⟩ => ⟨S_, .i32⟩
  | .hbm, ⟨16, _⟩ => ⟨S1250000, .i32⟩
  | .hbm, ⟨17, _⟩ => ⟨S1250000, .i32⟩
  | .hbm, ⟨18, _⟩ => ⟨S1250000, .i32⟩
  | .hbm, ⟨19, _⟩ => ⟨S1250000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1250000, .i32⟩
  | .hbm, ⟨32, _⟩ => ⟨S1250000, .i1⟩
  | .hbm, ⟨33, _⟩ => ⟨S_, .i32⟩
  | .hbm, ⟨34, _⟩ => ⟨S1250000, .i32⟩
  | .hbm, ⟨35, _⟩ => ⟨S1250000, .i32⟩
  | .hbm, ⟨36, _⟩ => ⟨S1250000, .i32⟩
  | .hbm, ⟨37, _⟩ => ⟨S1250000x1, .i32⟩
  | .hbm, ⟨38, _⟩ => ⟨S1250000, .f32⟩
  | .hbm, ⟨39, _⟩ => ⟨S_, .i32⟩
  | .hbm, ⟨40, _⟩ => ⟨S1250000, .i32⟩
  | .hbm, ⟨41, _⟩ => ⟨S1250000, .i1⟩
  | .hbm, ⟨42, _⟩ => ⟨S_, .i32⟩
  | .hbm, ⟨43, _⟩ => ⟨S1250000, .i32⟩
  | .hbm, ⟨44, _⟩ => ⟨S1250000, .i32⟩
  | .hbm, ⟨45, _⟩ => ⟨S1250000, .i32⟩
  | .hbm, ⟨46, _⟩ => ⟨S1250000x1, .i32⟩
  | .hbm, ⟨47, _⟩ => ⟨S1250000, .f32⟩
  | .hbm, ⟨48, _⟩ => ⟨S1250000, .f32⟩
  | .hbm, ⟨49, _⟩ => ⟨S_, .f32⟩
  | .hbm, ⟨50, _⟩ => ⟨S100000x64, .f32⟩
  | .hbm, ⟨51, _⟩ => ⟨S_, .i32⟩
  | .hbm, ⟨52, _⟩ => ⟨S1250000, .i32⟩
  | .hbm, ⟨53, _⟩ => ⟨S1250000, .i1⟩
  | .hbm, ⟨54, _⟩ => ⟨S_, .i32⟩
  | .hbm, ⟨55, _⟩ => ⟨S1250000, .i32⟩
  | .hbm, ⟨56, _⟩ => ⟨S1250000, .i32⟩
  | .hbm, ⟨57, _⟩ => ⟨S1250000, .i32⟩
  | .hbm, ⟨58, _⟩ => ⟨S1250000x1, .i32⟩
  | .hbm, ⟨59, _⟩ => ⟨S1250000x64, .f32⟩
  | .hbm, ⟨60, _⟩ => ⟨S1250000x1, .f32⟩
  | .hbm, ⟨61, _⟩ => ⟨S1250000x64, .f32⟩
  | .hbm, ⟨62, _⟩ => ⟨S1250000x64, .f32⟩
  | .hbm, ⟨63, _⟩ => ⟨S_, .i32⟩
  | .hbm, ⟨64, _⟩ => ⟨S1250000, .i32⟩
  | .hbm, ⟨65, _⟩ => ⟨S1250000, .i1⟩
  | .hbm, ⟨66, _⟩ => ⟨S_, .i32⟩
  | .hbm, ⟨67, _⟩ => ⟨S1250000, .i32⟩
  | .hbm, ⟨68, _⟩ => ⟨S1250000, .i32⟩
  | .hbm, ⟨69, _⟩ => ⟨S1250000, .i32⟩
  | .hbm, ⟨70, _⟩ => ⟨S1250000x1, .i32⟩
  | .hbm, ⟨71, _⟩ => ⟨S100000x64, .f32⟩
  | .hbm, ⟨72, _⟩ => ⟨S1x64, .f32⟩
  | .hbm, ⟨73, _⟩ => ⟨S100000x64, .f32⟩
  | .hbm, ⟨74, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_4 : Ref sig .tc := ⟨.hbm, 30, rfl⟩
abbrev main_v19 : Ref sig .tc := ⟨.hbm, 31, rfl⟩
abbrev main_v20 : Ref sig .tc := ⟨.hbm, 32, rfl⟩
abbrev main_c_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_6 : Ref sig .tc := ⟨.hbm, 39, rfl⟩
abbrev main_v26 : Ref sig .tc := ⟨.hbm, 40, rfl⟩
abbrev main_v27 : Ref sig .tc := ⟨.hbm, 41, rfl⟩
abbrev main_c_7 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_8 : Ref sig .tc := ⟨.hbm, 49, rfl⟩
abbrev main_v34 : Ref sig .tc := ⟨.hbm, 50, rfl⟩
abbrev main_c_9 : Ref sig .tc := ⟨.hbm, 51, rfl⟩
abbrev main_v35 : Ref sig .tc := ⟨.hbm, 52, rfl⟩
abbrev main_v36 : Ref sig .tc := ⟨.hbm, 53, rfl⟩
abbrev main_c_10 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_c_11 : Ref sig .tc := ⟨.hbm, 63, rfl⟩
abbrev main_v45 : Ref sig .tc := ⟨.hbm, 64, rfl⟩
abbrev main_v46 : Ref sig .tc := ⟨.hbm, 65, rfl⟩
abbrev main_c_12 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S100000 : S_.BroadcastsInDim S100000 (![] : Fin 0 → Fin S100000.rank)
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S100000x64 : S_.BroadcastsInDim S100000x64 (![] : Fin 0 → Fin S100000x64.rank)
  bcast_S1250000x1_S1250000x64_0_1 : S1250000x1.BroadcastsInDim S1250000x64 (![0, 1] : Fin 2 → Fin S1250000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x128_S128x64_S100000x64_1_0_0_1_n_n_wf : DotDims.WF S100000x128 S128x64 S100000x64 [1] [0] [0] [1] [] []
  scatter_S100000_S1250000x1_S1250000_n_0_0_1_wf : ScatterDims.WF S100000 S1250000x1 S1250000 [] [0] [0] 1
  gather_S100000_S1250000x1_S1250000_n_0_n_n_0_1_1_wf : GatherDims.WF S100000 S1250000x1 S1250000 [] [0] [] [0] [] 1 ![1]
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def gather_S100000_S1250000x1_S1250000_n_0_n_n_0_1_1 : GatherDims S100000 S1250000x1 S1250000 where
  offsetDims := []
  collapsedSliceDims := [0]
  operandBatchingDims := []
  startIndicesBatchingDims := []
  startIndexMap := [0]
  indexVectorDim := 1
  sliceSizes := ![1]
  wf := gather_S100000_S1250000x1_S1250000_n_0_n_n_0_1_1_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf

class Facts : Prop extends Facts₀ where

variable [Facts]
-- ==== Proof.ResultRun.lean ====
/-
  The kernel program's run with its result named. The program is two grids of blocks among stretches of host
  operations; every buffer that outlives a stretch ends the run at the value the fold through the stretches and the
  two grids gives it. Here that fold is read at the returned array as well as at the five argument arrays: every
  weakly fair execution terminates without a fault, the returned array holds the fold's value there, and the
  arguments are as launched.
-/
import proofs.«168694_j56573309223828_2_alg».proof.Proof.Gen.KernelIdeal.Frame

set_option maxRecDepth 16384

noncomputable section

namespace Cert.KernelIdeal.ResultRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the returned array ends at the value the fold through
    the program gives it (the last boundary's contents), and each argument array ends as it was launched. -/
theorem run : θ_run defs (onTc (τ := τ) (main (F := F))) ⟨m, fun _ => 0, ρ⟩ (fun r => ∀ c : Dev nD,
      r.2.mem ((c.tc : Thread nD τ).loc main_v53) = W7 m ρ c (Proc.devRef .tc main_v53)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v53 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c)⟩)

end Cert.KernelIdeal.ResultRun

end
-- ==== Proof.DenseBlocks.lean ====
/-
  The first grid computes the dense transform by row blocks: point t takes rows 10000·t … 10000·t + 9999 of the
  [100000, 128] features and the whole [128, 64] weight matrix, and writes those rows of their product. Over the
  extended reals narrowing a float's format changes nothing, and a product into a zero accumulator is the plain sum
  over the 128 contracted positions; so each block is the same rows of ONE function of the two arrays,
  entry (r, j) ↦ ∑ₖ x (r, k) · w (k, j), the ten blocks tile the array, and that function is the host's
  whole-array matrix product.
-/
import proofs.«168694_j56573309223828_2_alg».proof.Proof.Gen.KernelIdeal.Frame
import proofs.«168694_j56573309223828_2_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.DenseBlocks

open Idealize.ShloMosaic Idealize.ShloMosaic.TcCoe Idealize.SL.Sem
open Idealize.ShloMosaic.ValueIdx
open Cert.KernelIdeal Cert.KernelIdeal.Gen

/-- Entry (r, j) of the product: the sum over the 128 contracted positions. -/
def product (x : S100000x128.Idx → Elt Ideal .f32) (w : S128x64.Idx → Elt Ideal .f32) : S100000x64.Idx → Elt Ideal .f32 :=
  fun i => ∑ k : Fin 128, x (ix2 (n0 := 100000) (n1 := 128) (i 0) k) * w (ix2 (n0 := 128) (n1 := 64) k (i 1))

theorem zero_offsets : (![0, 0] : Fin 2 → Nat) = fun _ => 0 := funext fun a => by fin_cases a <;> rfl

/-- One block's product at a row and a channel: the sum over the contracted positions of the block's row times the
    weight's column. -/
theorem block_product (x0 : Vec Ideal S10000x128 .f32) (x1 : Vec Ideal S128x64 .f32) (y : S10000x64.Idx) :
    k0_pay1 x0 x1 y = ∑ k : Fin 128, x0 (ix2 (n0 := 10000) (n1 := 128) (y 0) k) * x1 (ix2 (n0 := 128) (n1 := 64) k (y 1)) := by
  unfold k0_pay1
  simp only [matmul]
  rw [Ideal.matmul_constant_zero_apply, ← Equiv.sum_comp (contrEquiv1 dot_S10000x128_S128x64_S10000x64_1_0_0_1_n_n 128 rfl rfl).symm]
  refine Finset.sum_congr rfl fun k _ => ?_
  have hk := contrEquiv1_symm_val dot_S10000x128_S128x64_S10000x64_1_0_0_1_n_n 128 rfl rfl k
  have el : dot_S10000x128_S128x64_S10000x64_1_0_0_1_n_n.lhsIdx y ((contrEquiv1 dot_S10000x128_S128x64_S10000x64_1_0_0_1_n_n 128 rfl rfl).symm k)
      = ix2 (n0 := 10000) (n1 := 128) (y 0) k := funext fun a => Fin.ext (by
    match a with
    | ⟨0, _⟩ =>
      show (dot_S10000x128_S128x64_S10000x64_1_0_0_1_n_n.lhsIdx y _ 0).val = (y 0).val
      unfold DotDims.lhsIdx
      rw [dif_neg (show ¬(0 : Fin S10000x128.rank) ∈ dot_S10000x128_S128x64_S10000x64_1_0_0_1_n_n.lhsBatch by decide),
        dif_pos (show (0 : Fin S10000x128.rank) ∈ dot_S10000x128_S128x64_S10000x64_1_0_0_1_n_n.lhsNonContracting by decide)]
      rfl
    | ⟨1, _⟩ => exact (dot_S10000x128_S128x64_S10000x64_1_0_0_1_n_n.lhsIdx_val_of_single rfl y _).trans hk)
  have er : dot_S10000x128_S128x64_S10000x64_1_0_0_1_n_n.rhsIdx y ((contrEquiv1 dot_S10000x128_S128x64_S10000x64_1_0_0_1_n_n 128 rfl rfl).symm k)
      = ix2 (n0 := 128) (n1 := 64) k (y 1) := funext fun a => Fin.ext (by
    match a with
    | ⟨0, _⟩ => exact (dot_S10000x128_S128x64_S10000x64_1_0_0_1_n_n.rhsIdx_val_of_single rfl y _).trans hk
    | ⟨1, _⟩ =>
      show (dot_S10000x128_S128x64_S10000x64_1_0_0_1_n_n.rhsIdx y _ 1).val = (y 1).val
      unfold DotDims.rhsIdx
      rw [dif_neg (show ¬(1 : Fin S128x64.rank) ∈ dot_S10000x128_S128x64_S10000x64_1_0_0_1_n_n.rhsBatch by decide),
        dif_pos (show (1 : Fin S128x64.rank) ∈ dot_S10000x128_S128x64_S10000x64_1_0_0_1_n_n.rhsNonContracting by decide)]
      rfl)
  rw [el, er]
  rfl

/-- The host's whole-array matrix product is that function. -/
theorem product_eq_host (x : S100000x128.Idx → Elt Ideal .f32) (w : S128x64.Idx → Elt Ideal .f32) :
    product x w = Host.dotGeneral (F := Ideal) (φ₁ := .f32) (φ₂ := .f32) Cert.ReferenceIdeal.dot_S100000x128_S128x64_S100000x64_1_0_0_1_n_n none x w := by
  funext i
  refine Eq.symm ((Cert.ReferenceIdeal.Read.val_main_v0_apply x w i).trans ?_)
  refine Finset.sum_congr rfl fun k _ => ?_
  have el : Cert.ReferenceIdeal.Read.lidx_main_v0 i k = ix2 (n0 := 100000) (n1 := 128) (i 0) k :=
    funext fun a => Fin.ext (by match a with | ⟨0, _⟩ => rfl | ⟨1, _⟩ => rfl)
  have er : Cert.ReferenceIdeal.Read.ridx_main_v0 i k = ix2 (n0 := 128) (n1 := 64) k (i 1) :=
    funext fun a => Fin.ext (by match a with | ⟨0, _⟩ => rfl | ⟨1, _⟩ => rfl)
  rw [el, er]

/-- The feature window and the output window sit at block row t, block column 0; the weight window never moves. -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point t writes back is rows 10000·t … of the product. -/
theorem flushed_eq (c : Dev nD) (t : Fin cfg0.N) :
    (dat0 V c).flushed 2 t = ((cfg0.win 2).blk t).view.read (Elt Ideal) (product (V c main_arg0) (V c main_arg3)) := by
  show (cfg0.win 2).cut (grid0.coords t) ((dat0 V c).after 2 t) = _
  rw [after0_2]
  unfold out0_2
  rw [View.canon_unit_zero zero_offsets]
  simp only [View.ld_unit_zero (S := S10000x128) zero_offsets, View.ld_unit_zero (S := S128x64) zero_offsets]
  obtain ⟨e0, e1, e2, e3, e4, e5⟩ := index_maps t
  funext j
  refine (block_product (iblk0 V c 0 t) (iblk0 V c 1 t) j).trans ?_
  have h0 : ∀ k : Fin 128, ((cfg0.win 0).blk t).view.emb (ix2 (n0 := 10000) (n1 := 128) (j 0) k)
      = ix2 (n0 := 100000) (n1 := 128) ((((cfg0.win 2).blk t).view.emb j) 0) k := by
    intro k; funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  have h1 : ∀ k : Fin 128, ((cfg0.win 1).blk t).view.emb (ix2 (n0 := 128) (n1 := 64) k (j 1))
      = ix2 (n0 := 128) (n1 := 64) k ((((cfg0.win 2).blk t).view.emb j) 1) := by
    intro k; funext a; apply Fin.ext
    match a with
    | ⟨0, _⟩ => show win0_1.index t (0 : Fin 2) * 128 + 1 * k.val = k.val; omega
    | ⟨1, _⟩ => show win0_1.index t (1 : Fin 2) * 64 + 1 * (j 1).val = win0_2.index t (1 : Fin 2) * 64 + 1 * (j 1).val; omega
  have key : ∀ (A : S100000x128.Idx → Elt Ideal .f32) (B : S128x64.Idx → Elt Ideal .f32),
      (∑ k : Fin 128, A (((cfg0.win 0).blk t).view.emb (ix2 (n0 := 10000) (n1 := 128) (j 0) k))
          * B (((cfg0.win 1).blk t).view.emb (ix2 (n0 := 128) (n1 := 64) k (j 1))))
        = product A B (((cfg0.win 2).blk t).view.emb j) := by
    intro A B
    unfold product
    exact Finset.sum_congr rfl fun k _ => by rw [h0 k, h1 k]
  exact key (V c main_arg0) (V c main_arg3)

/-- An entry is in point t's block iff its row is among rows 10000·t … 10000·t + 9999 (and its channel among the 64). -/
theorem mem_block (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v4).slice (win0_2.rect t)).set ↔ _
  rw [View.set_slice_whole, Rect.mem_set_unit]
  exact Iff.rfl

/-- Every entry is in the block of the point its row falls in. -/
theorem covered (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : grid0.N = 10 := N_0
  let t : Fin cfg0.N := ⟨(i 0).val / 10000, by show (i 0).val / 10000 < grid0.N; rw [hN]; omega⟩
  obtain ⟨e0, e1, e2, e3, e4, e5⟩ := index_maps t
  refine ⟨t, flush0_2 t, ?_⟩
  rw [mem_block]
  have ht : t.val = (i 0).val / 10000 := rfl
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- The array the first grid leaves: the host's matrix product of the two arrays as the grid found them. -/
theorem final (c : Dev nD) : (dat0 V c).arrAt 2 cfg0.N
    = Host.dotGeneral (F := Ideal) (φ₁ := .f32) (φ₂ := .f32) Cert.ReferenceIdeal.dot_S100000x128_S128x64_S100000x64_1_0_0_1_n_n none (V c main_arg0) (V c main_arg3) :=
  ((dat0 V c).arrAt_eq_of_cover 2 (product (V c main_arg0) (V c main_arg3)) (fun t _ => flushed_eq V c t) covered).trans
    (product_eq_host (V c main_arg0) (V c main_arg3))

end Cert.KernelIdeal.DenseBlocks

end
-- ==== Proof.ScaledBlocks.lean ====
/-
  The second grid multiplies each gathered feature row by that edge's weight: point t takes rows
  10000·t … 10000·t + 9999 of the [1250000, 64] feature array and of the [1250000, 1] weight column, and writes the
  same rows of the product. The 125 row blocks tile the array, so the array it leaves is, entry by entry,
  feature (e, j) times weight e.
-/
import proofs.«168694_j56573309223828_2_alg».proof.Proof.Gen.KernelIdeal.Frame
import Idealize.ShloMosaic.Lib.Pipeline.Value
import Idealize.ShloMosaic.Lib.ValueIdx

set_option maxRecDepth 16384

noncomputable section

namespace Cert.KernelIdeal.ScaledBlocks

open Idealize.ShloMosaic Idealize.ShloMosaic.TcCoe Idealize.SL.Sem
open Idealize.ShloMosaic.ValueIdx
open Cert.KernelIdeal Cert.KernelIdeal.Gen

/-- Entry (e, j) of the features times entry (e, 0) of the weight column. -/
def rowScaled (a : S1250000x64.Idx → Elt Ideal .f32) (w : S1250000x1.Idx → Elt Ideal .f32) : S1250000x64.Idx → Elt Ideal .f32 :=
  fun i => a i * w (ix2 (n0 := 1250000) (n1 := 1) (i 0) 0)

theorem zero_offsets : (![0, 0] : Fin 2 → Nat) = fun _ => 0 := funext fun a => by fin_cases a <;> rfl

/-- One block's product at a row and a channel: the feature there times the row's weight. -/
theorem block_product (x0 : Vec Ideal S10000x64 .f32) (x1 : Vec Ideal S10000x1 .f32) (y : S10000x64.Idx) :
    k1_pay1 x0 x1 y = x0 y * x1 (ix2 (n0 := 10000) (n1 := 1) (y 0) 0) := by
  unfold k1_pay1
  rw [mulf_apply, shapeCast_self, shapeCast_self]
  refine congrArg (x0 y * ·) ?_
  exact broadcastTo_apply x1 broadcasts_S10000x1_S10000x64 y (ix2 (n0 := 10000) (n1 := 1) (y 0) 0) (fun a => match a with
    | ⟨0, _⟩ => rfl
    | ⟨1, _⟩ => rfl)

/-- Every window of the grid sits at block row t, block column 0. -/
theorem index_maps : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- What point t writes back is rows 10000·t … of the row-scaled features. -/
theorem flushed_eq (c : Dev nD) (t : Fin cfg1.N) :
    (dat1 V c).flushed 2 t = ((cfg1.win 2).blk t).view.read (Elt Ideal) (rowScaled (V c main_v40) (V c main_v41)) := by
  show (cfg1.win 2).cut (grid1.coords t) ((dat1 V c).after 2 t) = _
  rw [after1_2]
  unfold out1_2
  rw [View.canon_unit_zero zero_offsets]
  simp only [View.ld_unit_zero (S := S10000x64) zero_offsets, View.ld_unit_zero (S := S10000x1) zero_offsets]
  obtain ⟨e0, e1, e2, e3, e4, e5⟩ := index_maps t
  funext j
  refine (block_product (iblk1 V c 0 t) (iblk1 V c 1 t) j).trans ?_
  have h0 : ((cfg1.win 0).blk t).view.emb j = ((cfg1.win 2).blk t).view.emb j := by
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 64 + 1 * (j 1).val = win1_2.index t (1 : Fin 2) * 64 + 1 * (j 1).val; omega
  have h1 : ((cfg1.win 1).blk t).view.emb (ix2 (n0 := 10000) (n1 := 1) (j 0) 0) = ix2 (n0 := 1250000) (n1 := 1) ((((cfg1.win 2).blk t).view.emb j) 0) 0 := by
    funext a; apply Fin.ext
    match a with
    | ⟨0, _⟩ => show win1_1.index t (0 : Fin 2) * 10000 + 1 * (j 0).val = win1_2.index t (0 : Fin 2) * 10000 + 1 * (j 0).val; omega
    | ⟨1, _⟩ => show win1_1.index t (1 : Fin 2) * 1 + 1 * 0 = 0; omega
  have key : ∀ (A : S1250000x64.Idx → Elt Ideal .f32) (B : S1250000x1.Idx → Elt Ideal .f32),
      A (((cfg1.win 0).blk t).view.emb j) * B (((cfg1.win 1).blk t).view.emb (ix2 (n0 := 10000) (n1 := 1) (j 0) 0))
        = rowScaled A B (((cfg1.win 2).blk t).view.emb j) := by
    intro A B
    unfold rowScaled
    rw [h0, h1]
  exact key (V c main_v40) (V c main_v41)

/-- An entry is in point t's block iff its row is among rows 10000·t … 10000·t + 9999 (and its channel among the 64). -/
theorem mem_block (t : Fin cfg1.N) (i : S1250000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v42).slice (win1_2.rect t)).set ↔ _
  rw [View.set_slice_whole, Rect.mem_set_unit]
  exact Iff.rfl

/-- Every entry is in the block of the point its row falls in. -/
theorem covered (i : S1250000x64.Idx) : ∃ t : Fin cfg1.N, (cfg1.win 2).flush t = true ∧ i ∈ ((cfg1.win 2).blk t).view.set := by
  have hi0 : (i 0).val < 1250000 := (i 0).isLt
  have hi1 : (i 1).val < 64 := (i 1).isLt
  have hN : grid1.N = 125 := N_1
  let t : Fin cfg1.N := ⟨(i 0).val / 10000, by show (i 0).val / 10000 < grid1.N; rw [hN]; omega⟩
  obtain ⟨e0, e1, e2, e3, e4, e5⟩ := index_maps t
  refine ⟨t, flush1_2 t, ?_⟩
  rw [mem_block]
  have ht : t.val = (i 0).val / 10000 := rfl
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- The array the second grid leaves: the row-scaled features, whole. -/
theorem final (c : Dev nD) : (dat1 V c).arrAt 2 cfg1.N = rowScaled (V c main_v40) (V c main_v41) :=
  (dat1 V c).arrAt_eq_of_cover 2 (rowScaled (V c main_v40) (V c main_v41)) (fun t _ => flushed_eq V c t) covered

end Cert.KernelIdeal.ScaledBlocks

end
-- ==== Proof.ResultValue.lean ====
/-
  The value the kernel program returns, as a function of its arguments: the fold through the host stretches and the
  two grids, read at the returned array, is the reference's composed term of the same arguments.
-/
import proofs.«168694_j56573309223828_2_alg».proof.Proof.DenseBlocks
import proofs.«168694_j56573309223828_2_alg».proof.Proof.ScaledBlocks
import proofs.«168694_j56573309223828_2_alg».proof.Proof.Gen.ReferenceIdeal.Run
import Idealize.ShloMosaic.Lib.StableHlo.Run

set_option maxRecDepth 16384

noncomputable section

namespace Cert.KernelIdeal.ResultValue

open Idealize.ShloMosaic Idealize.ShloMosaic.TcCoe Idealize.SL.Sem Idealize.ShloMosaic.StableHlo
open Idealize.ShloMosaic.ValueIdx
open Cert.KernelIdeal Cert.KernelIdeal.Gen

/-- Scaling each row by a weight column that is the weight vector reshaped is the entrywise product with the weight
    vector spread along the channels. -/
theorem rowScaled_reshape (a : S1250000x64.Idx → Elt Ideal .f32) (n : S1250000.Idx → Elt Ideal .f32)
    (hs : S1250000.ShapeCasts S1250000x1) (hb0 : S1250000.BroadcastsInDim S1250000x1 ![0])
    (hb1 : S1250000x1.BroadcastsInDim S1250000x64 ![0, 1]) :
    ScaledBlocks.rowScaled a (shapeCast S1250000x1 n hs)
      = mulf (F := Ideal) (φ := .f32) a (broadcastInDim S1250000x64 ![0, 1] hb1 (broadcastInDim S1250000x1 ![0] hb0 n)) := by
  funext i
  unfold ScaledBlocks.rowScaled
  rw [mulf_apply]
  refine congrArg (a i * ·) ?_
  have e1 : shapeCast S1250000x1 n hs (ix2 (n0 := 1250000) (n1 := 1) (i 0) 0) = n (ix1 (n := 1250000) (i 0)) :=
    shapeCast_apply n hs _ _ (by
      rewrite [Shape.rowMajor_val_one, Shape.rowMajor_val_two]
      show (i 0).val = (i 0).val * 1 + 0; omega)
  have e2 : broadcastInDim S1250000x64 ![0, 1] hb1 (broadcastInDim S1250000x1 ![0] hb0 n) i
      = broadcastInDim S1250000x1 ![0] hb0 n (ix2 (n0 := 1250000) (n1 := 1) (i 0) 0) :=
    broadcastInDim_apply _ hb1 _ i _ (fun a => match a with
      | ⟨0, _⟩ => rfl
      | ⟨1, _⟩ => rfl)
  have e3 : broadcastInDim S1250000x1 ![0] hb0 n (ix2 (n0 := 1250000) (n1 := 1) (i 0) 0) = n (ix1 (n := 1250000) (i 0)) :=
    broadcastInDim_apply _ hb0 n _ _ (fun a => match a with
      | ⟨0, _⟩ => rfl)
  rw [e1, e2, e3]

/-- The inverse-square-root-or-zero choice is made inside a called function whose operands and result are read at
    their declared types; read back at the buffers' own types it is the plain entrywise choice. -/
theorem select_typed (a : (⟨S100000, .i1⟩ : BufTy).Contents (Elt Ideal)) (b d : (⟨S100000, .f32⟩ : BufTy).Contents (Elt Ideal)) :
    (TRef.of (T := ⟨S100000, .f32⟩) (sig := sig) main_v18).toBuf
        (select ((TRef.of (T := ⟨S100000, .i1⟩) (sig := sig) main_v14).ofBuf a)
          ((TRef.of (T := ⟨S100000, .f32⟩) (sig := sig) main_v15).ofBuf b)
          ((TRef.of (T := ⟨S100000, .f32⟩) (sig := sig) main_v17).ofBuf d))
      = select a b d := rfl

/-- The last two operations — sum the messages into their row nodes, add the bias — respect equality of their operands. -/
theorem sum_and_bias_congr (D : ScatterDims S100000x64 S1250000x1 S1250000x64)
    (Z Z' : (⟨S100000x64, .f32⟩ : BufTy).Contents (Elt Ideal)) (I I' : (⟨S1250000x1, .i32⟩ : BufTy).Contents (Elt Ideal))
    (U U' : (⟨S1250000x64, .f32⟩ : BufTy).Contents (Elt Ideal)) (B B' : (⟨S100000x64, .f32⟩ : BufTy).Contents (Elt Ideal))
    (hZ : Z = Z') (hI : I = I') (hU : U = U') (hB : B = B') :
    addf (F := Ideal) (φ := .f32) (Host.scatterAdd D Z I U) B = addf (F := Ideal) (φ := .f32) (Host.scatterAdd D Z' I' U') B' := by
  subst hZ hI hU hB; rfl

variable (m : (ℓ : Loc nD τ sig) → Buf (Elt Ideal) ℓ) (ρ : Dev nD → PrngReg)

/-! ## The two grids' arrays, and the buffers they leave alone -/

/-- After the second grid the message array holds the row-scaled gathered features. -/
theorem scaled_array (c : Dev nD) : W6 m ρ c (Proc.devRef .tc main_v42)
    = ScaledBlocks.rowScaled (W5 m ρ c (Proc.devRef .tc main_v40)) (W5 m ρ c (Proc.devRef .tc main_v41)) :=
  (W6_arr m ρ c 2).trans (ScaledBlocks.final (V5 m ρ) c)
theorem rows_kept2 (c : Dev nD) : W6 m ρ c (Proc.devRef .tc main_v1) = W5 m ρ c (Proc.devRef .tc main_v1) :=
  W6_of_ne m ρ c main_v1 (by decide)
theorem bias_kept2 (c : Dev nD) : W6 m ρ c (Proc.devRef .tc main_arg4) = W5 m ρ c (Proc.devRef .tc main_arg4) :=
  W6_of_ne m ρ c main_arg4 (by decide)

/-- After the first grid the transformed-feature array holds the matrix product of the features and the weights. -/
theorem dense_array (c : Dev nD) : W2 m ρ c (Proc.devRef .tc main_v4)
    = Host.dotGeneral (F := Ideal) (φ₁ := .f32) (φ₂ := .f32) Cert.ReferenceIdeal.dot_S100000x128_S128x64_S100000x64_1_0_0_1_n_n none
        (W1 m ρ c (Proc.devRef .tc main_arg0)) (W1 m ρ c (Proc.devRef .tc main_arg3)) :=
  (W2_arr m ρ c 2).trans (DenseBlocks.final (V1 m ρ) c)
theorem rows_kept1 (c : Dev nD) : W2 m ρ c (Proc.devRef .tc main_v1) = W1 m ρ c (Proc.devRef .tc main_v1) :=
  W2_of_ne m ρ c main_v1 (by decide)
theorem cols_kept1 (c : Dev nD) : W2 m ρ c (Proc.devRef .tc main_v3) = W1 m ρ c (Proc.devRef .tc main_v3) :=
  W2_of_ne m ρ c main_v3 (by decide)
theorem weights_kept1 (c : Dev nD) : W2 m ρ c (Proc.devRef .tc main_arg2) = W1 m ρ c (Proc.devRef .tc main_arg2) :=
  W2_of_ne m ρ c main_arg2 (by decide)
theorem bias_kept1 (c : Dev nD) : W2 m ρ c (Proc.devRef .tc main_arg4) = W1 m ρ c (Proc.devRef .tc main_arg4) :=
  W2_of_ne m ρ c main_arg4 (by decide)

/-! ## The returned array -/

set_option maxHeartbeats 80000000 in
/-- The returned array of the kernel program, from arguments the reference's agree with, is the reference's composed
    term: the host stretches are the same operations on both sides, the first grid's array is the host's matrix
    product, and the second grid's array is the gathered features times the edge weights spread along the channels. -/
theorem result_eq (m' : (ℓ : Loc Cert.ReferenceIdeal.nD Cert.ReferenceIdeal.τ Cert.ReferenceIdeal.sig) → Buf (Elt Ideal) ℓ) (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4)) :
    W7 m ρ c (Proc.devRef .tc main_v53) = Cert.ReferenceIdeal.Value.res_main_v54 (F := Ideal) m' c := by
  unfold Cert.ReferenceIdeal.Value.res_main_v54
  rw [h0, h1, h2, h3, h4]
  dsimp only [W7, hostOps2]
  after_results_simp
  rw [scaled_array, rows_kept2, bias_kept2]
  dsimp only [W5, W4, W3, hostOps1_2, hostOps1_1, hostOps1]
  after_results_simp
  rw [select_typed]
  rw [dense_array, rows_kept1, cols_kept1, weights_kept1, bias_kept1]
  dsimp only [W1, hostOps0]
  after_results_simp
  refine Eq.trans (congrArg (fun U => addf (Host.scatterAdd _ _ _ U) _)
    (rowScaled_reshape _ _ _ bcast_S1250000_S1250000x1_0 Cert.ReferenceIdeal.Facts₀.bcast_S1250000x1_S1250000x64_0_1)) ?_
  beta_reduce
  refine sum_and_bias_congr _ _ _ _ _ _ _ _ _ ?_ ?_ ?_ ?_
  · rfl
  · rfl
  · rfl
  · rfl

end Cert.KernelIdeal.ResultValue

end
-- ==== Proof.lean ====
/-
  Graph convolution with symmetric degree normalization, as a kernel program and as its plain reference.

  Both compute, from node features x [100000, 128], edges (row, col) [2, 1250000], edge weights, a weight matrix
  W [128, 64] and a bias b [64]:
    h = x · W;  deg = the edge weights summed into their row nodes;  d = 0 where deg = 0, else deg^(-1/2);
    norm_e = d[row_e] · d[col_e];  out = the rows h[col_e] · norm_e summed into their row nodes, plus b.
  The kernel program differs from the reference in two places only. It forms h by ten row blocks of 10000 rows, each
  block the product of its rows of x with W (the operands narrowed to a shorter float format first, which over the
  extended reals changes nothing); and it forms the messages h[col_e] · norm_e by 125 row blocks of 10000 edges, each
  block its rows of the gathered features times its rows of the weight column. Every other operation — the index
  arithmetic, the two scatter-adds, the gathers, the power and the select, the bias — is the same operation applied
  to the same operands on both sides.

  So the equality needs two facts: the ten blocks tile the matrix product (each entry is the same sum over the 128
  contracted positions on both sides, sums over the extended reals being commutative and associative), and the 125
  blocks tile the row-scaled features (entry (e, j) is h[col_e, j] · norm_e on both sides). Neither uses that the
  inputs are finite. The kernel program's rewrites to the ideal instance are none, so that conjunct is trivial; the
  three runs terminate without a fault and leave their arguments unchanged.
-/
import proofs.«168694_j56573309223828_2_alg».proof.Defs
import proofs.«168694_j56573309223828_2_alg».proof.Proof.Gen.Kernel
import proofs.«168694_j56573309223828_2_alg».proof.Proof.Gen.Kernel.Skeleton
import proofs.«168694_j56573309223828_2_alg».proof.Proof.Gen.Kernel.Launch
import proofs.«168694_j56573309223828_2_alg».proof.Proof.Gen.Kernel.Points
import proofs.«168694_j56573309223828_2_alg».proof.Proof.Gen.Kernel.Frame
import proofs.«168694_j56573309223828_2_alg».proof.Proof.Gen.KernelIdeal
import proofs.«168694_j56573309223828_2_alg».proof.Proof.Gen.KernelIdeal.Skeleton
import proofs.«168694_j56573309223828_2_alg».proof.Proof.Gen.KernelIdeal.Launch
import proofs.«168694_j56573309223828_2_alg».proof.Proof.Gen.KernelIdeal.Points
import proofs.«168694_j56573309223828_2_alg».proof.Proof.Gen.KernelIdeal.Frame
import proofs.«168694_j56573309223828_2_alg».proof.Proof.Gen.ReferenceIdeal
import proofs.«168694_j56573309223828_2_alg».proof.Proof.Gen.ReferenceIdeal.Run
import proofs.«168694_j56573309223828_2_alg».proof.Proof.Gen.ReferenceIdeal.Read
import proofs.«168694_j56573309223828_2_alg».proof.Proof.Gen.Pre_finite_inputs
import proofs.«168694_j56573309223828_2_alg».proof.Proof.ResultRun
import proofs.«168694_j56573309223828_2_alg».proof.Proof.ResultValue
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_kernel : Cert.frame_Kernel := fun m ρ _ => Cert.Kernel.Gen.frame m ρ

/-- So does the kernel program over the extended reals. -/
theorem frame_kernel_ideal : Cert.frame_KernelIdeal := fun m ρ _ => Cert.KernelIdeal.Gen.frame m ρ

/-- The reference's run, with what it says of the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From arguments that agree, both programs run and return the same array: the kernel program's returned array is
    the fold through its host stretches and two grids, and that fold is the reference's composed term. -/
theorem algebraic : Cert.algebraic_KernelIdeal_ReferenceIdeal := by
  intro m ρ m' ρ' _ hagree
  refine ⟨fun c => Cert.KernelIdeal.Gen.W7 m ρ c (Proc.devRef .tc Cert.KernelIdeal.main_v53),
    Cert.KernelIdeal.ResultRun.run m ρ, ?_⟩
  refine (θ_run Cert.ReferenceIdeal.defs _ _).mono (fun _ h c => ⟨(h c).1.trans ?_, (h c).2⟩)
    (Cert.ReferenceIdeal.Value.run (F := Ideal) m' ρ')
  exact (Cert.KernelIdeal.ResultValue.result_eq m ρ m' c (hagree c).1 (hagree c).2.1 (hagree c).2.2.1
    (hagree c).2.2.2.1 (hagree c).2.2.2.2).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
